-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x256x4096 : Shape := ⟨3, ![16, 256, 4096]⟩
abbrev S16x256 : Shape := ⟨2, ![16, 256]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x256x4096 : S_.BroadcastsInDim S16x256x4096 (![] : Fin 0 → Fin S16x256x4096.rank)
  reducesTo_S16x256x4096_S_d0_1_2 : S16x256x4096.ReducesTo [0, 1, 2] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S16x4096x512 .f32) (main_arg1 : FVec F S16x256x4096 .f32) (main_arg2 : FVec F S16x256 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x256x4096 .f32 := Host.absf main_arg1
  let main_cst_0 : FVec F S_ .f32 := constant S_ .f32 0x7F800000#32
  let main_v5 : FVec F S16x256x4096 .f32 := broadcastInDim S16x256x4096 ![] bcast_S_S16x256x4096 main_cst_0
  let main_v6 : IVec S16x256x4096 1 := cmpf .olt main_v4 main_v5
  let main_c_1 : IVec S_ 1 := constantI S_ 1 1#1
  let main_v7 : IVec S_ 1 := (fun x v => Host.reduce IntOp.andi x v reducesTo_S16x256x4096_S_d0_1_2 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S16x4096x512 : Shape := ⟨3, ![16, 4096, 512]⟩
abbrev S16x256x4096 : Shape := ⟨3, ![16, 256, 4096]⟩
abbrev S16x256 : Shape := ⟨2, ![16, 256]⟩
abbrev S16x256x1 : Shape := ⟨3, ![16, 256, 1]⟩
abbrev S16x256x512 : Shape := ⟨3, ![16, 256, 512]⟩
abbrev S1x256x4096 : Shape := ⟨3, ![1, 256, 4096]⟩
abbrev S1x4096x512 : Shape := ⟨3, ![1, 4096, 512]⟩
abbrev S1x256x1 : Shape := ⟨3, ![1, 256, 1]⟩
abbrev S1x256x512 : Shape := ⟨3, ![1, 256, 512]⟩
abbrev S256x4096 : Shape := ⟨2, ![256, 4096]⟩
abbrev S4096x512 : Shape := ⟨2, ![4096, 512]⟩
abbrev S256x512 : Shape := ⟨2, ![256, 512]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x4096x512, .f32⟩
  | .hbm, ⟨1, _⟩ => ⟨S16x256x4096, .f32⟩
  | .hbm, ⟨2, _⟩ => ⟨S16x256, .f32⟩
  | .hbm, ⟨3, _⟩ => ⟨S16x256x1, .f32⟩
  | .hbm, ⟨4, _⟩ => ⟨S16x256x512, .f32⟩
  | .local _ .vmem, ⟨0, _⟩ => ⟨S1x256x4096, .f32⟩
  | .local _ .vmem, ⟨1, _⟩ => ⟨S1x256x4096, .f32⟩
  | .local _ .vmem, ⟨2, _⟩ => ⟨S1x4096x512, .f32⟩
  | .local _ .vmem, ⟨3, _⟩ => ⟨S1x4096x512, .f32⟩
  | .local _ .vmem, ⟨4, _⟩ => ⟨S1x256x1, .f32⟩
  | .local _ .vmem, ⟨5, _⟩ => ⟨S1x256x1, .f32⟩
  | .local _ .vmem, ⟨6, _⟩ => ⟨S1x256x512, .f32⟩
  | .local _ .vmem, ⟨7, _⟩ => ⟨S1x256x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x256_S16x256x1 : S16x256.ShapeCasts S16x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x512 : S256x1.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .f32 = 32 ∨ (Rect.block (s := S16x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S16x4096x512.size a
  hwx0_1 : ∀ i : grid0.Coords, EltTy.bits .f32 = 32 ∨ (Rect.block (s := S16x4096x512) S1x4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x256x1.size a
  hwx0_2 : ∀ i : grid0.Coords, EltTy.bits .f32 = 32 ∨ (Rect.block (s := S16x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S16x256x512.size a
  hwx0_3 : ∀ i : grid0.Coords, EltTy.bits .f32 = 32 ∨ (Rect.block (s := S16x256x512) S1x256x512.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S16x256x4096 : Shape := ⟨3, ![16, 256, 4096]⟩
abbrev S16x256 : Shape := ⟨2, ![16, 256]⟩
abbrev S16x256x512 : Shape := ⟨3, ![16, 256, 512]⟩
abbrev S16x256x1 : Shape := ⟨3, ![16, 256, 1]⟩

abbrev nBuf : Space → Nat
  | .hbm => 7
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x256x4096, .f32⟩
  | .hbm, ⟨2, _⟩ => ⟨S16x256, .f32⟩
  | .hbm, ⟨3, _⟩ => ⟨S16x256x512, .f32⟩
  | .hbm, ⟨4, _⟩ => ⟨S16x256x1, .f32⟩
  | .hbm, ⟨5, _⟩ => ⟨S16x256x512, .f32⟩
  | .hbm, ⟨6, _⟩ => ⟨S16x256x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x256_S16x256x1_0_1 : S16x256.BroadcastsInDim S16x256x1 (![0, 1] : Fin 2 → Fin S16x256x1.rank)
  bcast_S16x256x1_S16x256x512_0_1_2 : S16x256x1.BroadcastsInDim S16x256x512 (![0, 1, 2] : Fin 3 → Fin S16x256x512.rank)
  dot_S16x256x4096_S16x4096x512_S16x256x512_2_1_1_2_0_0_wf : DotDims.WF S16x256x4096 S16x4096x512 S16x256x512 [2] [1] [1] [2] [0] [0]

variable [Facts₀]

def dot_S16x256x4096_S16x4096x512_S16x256x512_2_1_1_2_0_0 : DotDims S16x256x4096 S16x4096x512 S16x256x512 where
  lhsContracting := [2]
  rhsContracting := [1]
  lhsNonContracting := [1]
  rhsNonContracting := [2]
  lhsBatch := [0]
  rhsBatch := [0]
  wf := dot_S16x256x4096_S16x4096x512_S16x256x512_2_1_1_2_0_0_wf

class Facts : Prop extends Facts₀ where

variable [Facts]
-- ==== Proof.PoolSpec.lean ====
/-
  The pooled entity states, as one function of the three argument arrays.

  For a batch b, an entity e and a feature d, the result is the weighted sum over the 4096 document positions l of
  mapping (b, e, l) · doc (b, l, d), divided by the entity's length lens (b, e). Every operation is the exact one on the
  extended reals. No program is mentioned here: both programs are compared with this function.
-/
import Idealize.ShloMosaic.Lib.ValueIdx
import Idealize.ShloMosaic.PureOps.Ideal

noncomputable section

namespace Cert.Pool

open Idealize.ShloMosaic Idealize.ShloMosaic.ValueIdx

/-- The result at batch `b`, entity `e`, feature `d`: the mapping-weighted sum of the document's rows, over the length. -/
def pooledAt (doc : (⟨3, ![16, 4096, 512]⟩ : Shape).Idx → EReal) (map : (⟨3, ![16, 256, 4096]⟩ : Shape).Idx → EReal)
    (lens : (⟨2, ![16, 256]⟩ : Shape).Idx → EReal) (b : Fin 16) (e : Fin 256) (d : Fin 512) : EReal :=
  Ideal.div (∑ l : Fin 4096, map (ix3 b e l) * doc (ix3 b l d)) (lens (ix2 b e))

/-- The whole result array, index by index. -/
def pooled (doc : (⟨3, ![16, 4096, 512]⟩ : Shape).Idx → EReal) (map : (⟨3, ![16, 256, 4096]⟩ : Shape).Idx → EReal)
    (lens : (⟨2, ![16, 256]⟩ : Shape).Idx → EReal) : (⟨3, ![16, 256, 512]⟩ : Shape).Idx → EReal :=
  fun i => pooledAt doc map lens (i 0) (i 1) (i 2)

theorem pooled_ix3 (doc : (⟨3, ![16, 4096, 512]⟩ : Shape).Idx → EReal) (map : (⟨3, ![16, 256, 4096]⟩ : Shape).Idx → EReal)
    (lens : (⟨2, ![16, 256]⟩ : Shape).Idx → EReal) (b : Fin 16) (e : Fin 256) (d : Fin 512) :
    pooled doc map lens (ix3 b e d) = pooledAt doc map lens b e d := rfl

end Cert.Pool

end
-- ==== Proof.ReferencePooled.lean ====
/-
  The reference program's result is the pooled function of its arguments.

  The reference contracts the mapping with the document over the position axis, batch by batch, broadcasts the lengths
  along the feature axis (through a unit axis), and divides. Read at an index (b, e, d) the contraction is the sum over l
  of mapping (b, e, l) · doc (b, l, d), the broadcast is lens (b, e), and the host's quotient is the extended reals' one.
-/
import proofs.«115059_j6382321401927_1_alg».proof.Proof.Gen.ReferenceIdeal.Read
import proofs.«115059_j6382321401927_1_alg».proof.Proof.PoolSpec

noncomputable section

namespace Cert.Pool.Reference

open Cert.ReferenceIdeal Cert.ReferenceIdeal.Read Idealize.ShloMosaic Idealize.ShloMosaic.ValueIdx

/-- The contraction reads the mapping at (b, e, l). -/
theorem map_idx (i : S16x256x512.Idx) (k : Fin 4096) : lidx_main_v0 i k = ix3 (i 0) (i 1) k :=
  funext fun a => Fin.ext (by match a with | ⟨0, _⟩ => rfl | ⟨1, _⟩ => rfl | ⟨2, _⟩ => rfl)

/-- The contraction reads the document at (b, l, d). -/
theorem doc_idx (i : S16x256x512.Idx) (k : Fin 4096) : ridx_main_v0 i k = ix3 (i 0) k (i 2) :=
  funext fun a => Fin.ext (by match a with | ⟨0, _⟩ => rfl | ⟨1, _⟩ => rfl | ⟨2, _⟩ => rfl)

/-- The two broadcasts together read the lengths at (b, e). -/
theorem lens_idx (i : S16x256x512.Idx) : idx_main_v1 (idx_main_v2 i) = ix2 (i 0) (i 1) :=
  funext fun a => Fin.ext (by match a with | ⟨0, _⟩ => rfl | ⟨1, _⟩ => rfl)

/-- THE REFERENCE IS THE POOLED FUNCTION: its last stage, at the extended reals, index by index. -/
theorem result_eq (x0 : (⟨S16x4096x512, .f32⟩ : BufTy).Contents (Elt Ideal)) (x1 : (⟨S16x256x4096, .f32⟩ : BufTy).Contents (Elt Ideal))
    (x2 : (⟨S16x256, .f32⟩ : BufTy).Contents (Elt Ideal)) :
    val_main_v3 (F := Ideal) x0 x1 x2 = Cert.Pool.pooled x0 x1 x2 := by
  funext i
  rw [val_main_v3_apply, val_main_v0_apply, val_main_v2_apply, val_main_v1_apply]
  simp only [map_idx, doc_idx, lens_idx, Ideal.hostDivf_def]
  rfl

end Cert.Pool.Reference

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelBlock.lean ====
/-
  One grid point of the kernel, read at an index of its output block.

  The body loads a [1, 256, 4096] block of the mapping, a [1, 4096, 512] block of the document and a [1, 256, 1] block of
  the lengths, drops the leading unit axes, multiplies the two matrices into a zero accumulator, broadcasts the length
  column along the features and divides. A change of float format is the identity on the extended reals. So at the
  block's index (0, p, q) the stored value is the sum over k of mapping-block (0, p, k) · doc-block (0, k, q), divided by
  lens-block (0, p, 0).
-/
import proofs.«115059_j6382321401927_1_alg».proof.Proof.Gen.KernelIdeal.Skeleton
import proofs.«115059_j6382321401927_1_alg».proof.Proof.LibPlainDot
import proofs.«115059_j6382321401927_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.Pool.Kernel

open Cert.KernelIdeal Cert.KernelIdeal.Gen Idealize.ShloMosaic Idealize.ShloMosaic.ValueIdx

/-- THE STORED BLOCK AT (u, p, q): the matrix product's entry (p, q) over the length of row p. -/
theorem payload_apply (x0 : Vec Ideal S1x256x4096 .f32) (x1 : Vec Ideal S1x4096x512 .f32) (x2 : Vec Ideal S1x256x1 .f32)
    (u : Fin 1) (p : Fin 256) (q : Fin 512) :
    k0_pay1 (F := Ideal) x0 x1 x2 (ix3 u p q)
      = Ideal.div (∑ k : Fin 4096, x0 (ix3 (0 : Fin 1) p k) * x1 (ix3 (0 : Fin 1) k q)) (x2 (ix3 (0 : Fin 1) p (0 : Fin 1))) := by
  unfold k0_pay1
  refine (shapeCast_ab_1ab_apply _ _ u p q).trans ?_
  refine (divf_apply _ _ (ix2 p q)).trans ?_
  refine congrArg₂ Ideal.div ?_ ?_
  · refine (Cert.Lib.matmul_zero_apply _ none _ _ p q).trans ?_
    refine Finset.sum_congr rfl fun k _ => ?_
    refine congrArg₂ (· * ·) ?_ ?_
    · exact shapeCast_1ab_ab_apply x0 _ p k
    · exact shapeCast_1ab_ab_apply x1 _ k q
  · refine (Cert.Lib.broadcastTo_a1_ab_apply _ _ p q).trans ?_
    exact shapeCast_1ab_ab_apply x2 _ p (0 : Fin 1)

end Cert.Pool.Kernel

end
-- ==== Proof.KernelWindows.lean ====
/-
  The kernel's windows at a grid point, read as rows of the argument arrays.

  The grid has one axis, the batch: point t works on batch b = t. Each of the four windows takes, at point t, the block of
  its array whose leading index is b and whose other two indices are 0, and a block's coordinate along an axis is
  index × size + the coordinate inside the block. So the mapping's block at (0, p, k) is mapping (b, p, k), the document's
  at (0, k, q) is doc (b, k, q), and the output's block at (0, p, q) sits at (b, p, q) of the result.
  The third window's array is not an argument: it is the lengths re-laid from [16, 256] to [16, 256, 1] on the host
  before the call, so its block at (0, p, 0) is lens (b, p).
-/
import proofs.«115059_j6382321401927_1_alg».proof.Proof.Gen.KernelIdeal.Value
import Idealize.ShloMosaic.Lib.StableHlo.Run
import Idealize.ShloMosaic.Lib.ValueIdx
import Idealize.ShloMosaic.Lib.Pipeline.Value

noncomputable section

namespace Cert.Pool.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four index maps over the grid: every window's leading block index is the output's, which stays below 16, and
    the other block indices are 0. -/
theorem block_indices : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) = 0 ∧ win0_3.index t (2 : Fin 3) = 0 :=
  (by decide +kernel : ∀ t : Fin grid0.N, _)

/-- Every batch is some point's. -/
theorem batch_onto : ∀ b : Fin 16, ∃ t : Fin cfg0.N, win0_3.index t = ![b.val, 0, 0] :=
  (by decide +kernel : ∀ b : Fin 16, ∃ t : Fin grid0.N, win0_3.index t = ![b.val, 0, 0])

/-- The batch a point works on. -/
def batchOf (t : Fin cfg0.N) : Fin 16 := ⟨win0_3.index t (0 : Fin 3), by have := (block_indices t).2.2.2.2.2.2.2.2.2.1; omega⟩

theorem batchOf_val (t : Fin cfg0.N) : (batchOf t).val = win0_3.index t (0 : Fin 3) := rfl

/-- The mapping's block at point `t`, at (u, p, k), is mapping (b, p, k). -/
theorem map_block (c : Dev nD) (t : Fin cfg0.N) (u : Fin 1) (p : Fin 256) (k : Fin 4096) :
    (iblk m c 0 t : Vec Ideal S1x256x4096 .f32) (ix3 u p k)
      = (m ((c : Thread nD τ).loc main_arg1) : S16x256x4096.Idx → EReal) (ix3 (batchOf t) p k) := by
  obtain ⟨e0, e1, e2, -⟩ := block_indices t
  unfold iblk
  rw [View.read_apply]
  show V m c main_arg1 _ = _
  rw [V_main_arg1]
  refine congrArg (m ((c : Thread nD τ).loc main_arg1)) (funext fun a => Fin.ext ?_)
  have hu : u.val = 0 := by omega
  match a with
  | ⟨0, _⟩ => show win0_0.index t (0 : Fin 3) * 1 + 1 * u.val = win0_3.index t (0 : Fin 3); omega
  | ⟨1, _⟩ => show win0_0.index t (1 : Fin 3) * 256 + 1 * p.val = p.val; omega
  | ⟨2, _⟩ => show win0_0.index t (2 : Fin 3) * 4096 + 1 * k.val = k.val; omega

/-- The document's block at point `t`, at (u, k, q), is doc (b, k, q). -/
theorem doc_block (c : Dev nD) (t : Fin cfg0.N) (u : Fin 1) (k : Fin 4096) (q : Fin 512) :
    (iblk m c 1 t : Vec Ideal S1x4096x512 .f32) (ix3 u k q)
      = (m ((c : Thread nD τ).loc main_arg0) : S16x4096x512.Idx → EReal) (ix3 (batchOf t) k q) := by
  obtain ⟨-, -, -, e0, e1, e2, -⟩ := block_indices t
  unfold iblk
  rw [View.read_apply]
  show V m c main_arg0 _ = _
  rw [V_main_arg0]
  refine congrArg (m ((c : Thread nD τ).loc main_arg0)) (funext fun a => Fin.ext ?_)
  have hu : u.val = 0 := by omega
  match a with
  | ⟨0, _⟩ => show win0_1.index t (0 : Fin 3) * 1 + 1 * u.val = win0_3.index t (0 : Fin 3); omega
  | ⟨1, _⟩ => show win0_1.index t (1 : Fin 3) * 4096 + 1 * k.val = k.val; omega
  | ⟨2, _⟩ => show win0_1.index t (2 : Fin 3) * 512 + 1 * q.val = q.val; omega

/-- The lengths as the call finds them: the argument re-laid with a trailing unit axis. -/
theorem lens_entry (c : Dev nD) :
    (V m c main_v0 : S16x256x1.Idx → EReal)
      = shapeCast S16x256x1 (m ((c : Thread nD τ).loc main_arg2) : S16x256.Idx → EReal) Facts₀.shapeCasts_S16x256_S16x256x1 := by
  dsimp only [V, hostOps0]
  after_results
  rfl

/-- Read at (b, e, z) they are lens (b, e): the two indices have the same row-major position. -/
theorem lens_entry_apply (c : Dev nD) (b : Fin 16) (e : Fin 256) (z : Fin 1) :
    (V m c main_v0 : S16x256x1.Idx → EReal) (ix3 b e z)
      = (m ((c : Thread nD τ).loc main_arg2) : S16x256.Idx → EReal) (ix2 b e) := by
  rw [lens_entry]
  refine shapeCast_apply (s := S16x256) (t := S16x256x1) _ _ _ _ ?_
  show (S16x256.rowMajor (ix2 b e)).val = (S16x256x1.rowMajor (ix3 b e z)).val
  rw [Shape.rowMajor_val_two, Shape.rowMajor_val_three]
  show b.val * 256 + e.val = (b.val * 256 + e.val) * 1 + z.val
  omega

/-- The lengths' block at point `t`, at (u, p, z), is lens (b, p). -/
theorem lens_block (c : Dev nD) (t : Fin cfg0.N) (u : Fin 1) (p : Fin 256) (z : Fin 1) :
    (iblk m c 2 t : Vec Ideal S1x256x1 .f32) (ix3 u p z)
      = (m ((c : Thread nD τ).loc main_arg2) : S16x256.Idx → EReal) (ix2 (batchOf t) p) := by
  obtain ⟨-, -, -, -, -, -, e0, e1, e2, -⟩ := block_indices t
  rw [← lens_entry_apply m c (batchOf t) p z]
  unfold iblk
  rw [View.read_apply]
  show V m c main_v0 _ = V m c main_v0 _
  refine congrArg (V m c main_v0) (funext fun a => Fin.ext ?_)
  have hu : u.val = 0 := by omega
  match a with
  | ⟨0, _⟩ => show win0_2.index t (0 : Fin 3) * 1 + 1 * u.val = win0_3.index t (0 : Fin 3); omega
  | ⟨1, _⟩ => show win0_2.index t (1 : Fin 3) * 256 + 1 * p.val = p.val; omega
  | ⟨2, _⟩ => show win0_2.index t (2 : Fin 3) * 1 + 1 * z.val = z.val; omega

/-- The output's block at point `t` puts its (u, p, q) at (b, p, q) of the result array. -/
theorem out_block (t : Fin cfg0.N) (u : Fin 1) (p : Fin 256) (q : Fin 512) :
    (((cfg0.win 3).blk t).view.emb (ix3 u p q) : S16x256x512.Idx) = ix3 (batchOf t) p q := by
  obtain ⟨-, -, -, -, -, -, -, -, -, -, e1, e2⟩ := block_indices t
  refine funext fun a => Fin.ext ?_
  have hu : u.val = 0 := by omega
  match a with
  | ⟨0, _⟩ => show win0_3.index t (0 : Fin 3) * 1 + 1 * u.val = win0_3.index t (0 : Fin 3); omega
  | ⟨1, _⟩ => show win0_3.index t (1 : Fin 3) * 256 + 1 * p.val = p.val; omega
  | ⟨2, _⟩ => show win0_3.index t (2 : Fin 3) * 512 + 1 * q.val = q.val; omega

end Cert.Pool.Kernel

end
-- ==== Proof.KernelArray.lean ====
/-
  The kernel's result array is the pooled function of its arguments.

  Point t writes back one block: batch b = t of the result. By the body's arithmetic and the windows' blocks, that block
  is the pooled function read through the block. The sixteen blocks cover the result array — the index (b, e, d) lies in
  the block of the point that works on batch b — so after the run the whole array is the pooled function.
-/
import proofs.«115059_j6382321401927_1_alg».proof.Proof.Gen.KernelIdeal.Value
import proofs.«115059_j6382321401927_1_alg».proof.Proof.PoolSpec
import proofs.«115059_j6382321401927_1_alg».proof.Proof.KernelBlock
import proofs.«115059_j6382321401927_1_alg».proof.Proof.KernelWindows
import Idealize.ShloMosaic.Lib.Pipeline.Value
import Idealize.ShloMosaic.Lib.ValueIdx

noncomputable section

namespace Cert.Pool.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The pooled function of the argument arrays as launched, on core `c`. -/
abbrev result (c : Dev nD) : S16x256x512.Idx → EReal :=
  Cert.Pool.pooled (m ((c : Thread nD τ).loc main_arg0)) (m ((c : Thread nD τ).loc main_arg1)) (m ((c : Thread nD τ).loc main_arg2))

theorem origin : (![0, 0, 0] : Fin 3 → Nat) = fun _ => 0 := funext fun a => by fin_cases a <;> rfl

/-- WHAT POINT `t` WRITES BACK is block `t` of the pooled function. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero origin]
  simp only [View.ld_unit_zero (S := S1x256x4096) origin, View.ld_unit_zero (S := S1x4096x512) origin,
    View.ld_unit_zero (S := S1x256x1) origin]
  refine funext fun (j : S1x256x512.Idx) => ?_
  obtain ⟨u, p, q, rfl⟩ : ∃ (u : Fin 1) (p : Fin 256) (q : Fin 512), j = ix3 u p q := ⟨j 0, j 1, j 2, eq_ix3 j⟩
  show k0_pay1 (F := Ideal) (iblk m c 0 t) (iblk m c 1 t) (iblk m c 2 t) (ix3 u p q)
    = result m c (((cfg0.win 3).blk t).view.emb (ix3 u p q))
  rw [out_block t u p q]
  refine (payload_apply (iblk m c 0 t) (iblk m c 1 t) (iblk m c 2 t) u p q).trans ?_
  show _ = Cert.Pool.pooledAt _ _ _ (batchOf t) p q
  unfold Cert.Pool.pooledAt
  rw [lens_block m c t (0 : Fin 1) p (0 : Fin 1)]
  refine congrArg (fun s => Ideal.div s _) (Finset.sum_congr rfl fun k _ => ?_)
  rw [map_block m c t (0 : Fin 1) p k, doc_block m c t (0 : Fin 1) k q]

/-- An index of the result array is in point `t`'s block iff each coordinate is in the block's range on its axis. -/
theorem mem_block (t : Fin cfg0.N) (i : S16x256x512.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v1).slice (win0_3.rect t)).set ↔ _
  rw [View.set_slice_whole, Rect.mem_set_unit]
  exact Iff.rfl

/-- THE BLOCKS COVER THE RESULT: (b, e, d) is in the block of the point that works on batch b. -/
theorem covered (i : S16x256x512.Idx) :
    ∃ t : Fin cfg0.N, (cfg0.win 3).flush t = true ∧ i ∈ ((cfg0.win 3).blk t).view.set := by
  obtain ⟨t, ht⟩ := batch_onto (i 0)
  have q0 : win0_3.index t (0 : Fin 3) = (i 0).val := congrFun ht 0
  have q1 : win0_3.index t (1 : Fin 3) = 0 := congrFun ht 1
  have q2 : win0_3.index t (2 : Fin 3) = 0 := congrFun ht 2
  have h1 : (i 1).val < 256 := (i 1).isLt
  have h2 : (i 2).val < 512 := (i 2).isLt
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- THE RESULT ARRAY after the run is the pooled function. -/
theorem final (c : Dev nD) : (dats m 0 c).arrAt 3 cfg0.N = result m c :=
  (dats m 0 c).arrAt_eq_of_cover 3 (result m c) (fun t _ => flushed_eq m c t) covered

/-- The kernel's run, read: the result array at the pooled function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Pool.Kernel

end
-- ==== Proof.lean ====
/-
  Pooling a document's states into entity states: the kernel against its reference, over the extended reals.

  Both programs compute, for a batch b, an entity e and a feature d,
      (∑ l, mapping (b, e, l) · doc (b, l, d)) / lens (b, e).
  The kernel works batch by batch: at grid point b it multiplies the [256, 4096] slab of the mapping with the
  [4096, 512] slab of the document into a zero accumulator and divides each row by its length; the reference contracts
  the whole arrays at once and divides by the broadcast lengths. Rounding the matrix product's operands to a shorter
  float format is the identity on the extended reals, so the two sums have the same terms in the same order, and
  the quotient is the same operation on both sides: no law of arithmetic is needed, and the precondition is never opened.

  Proof/PoolSpec.lean states that function; Proof/ReferencePooled.lean shows the reference's last stage is it;
  Proof/KernelBlock.lean reads the kernel body's stored block at an index; Proof/KernelWindows.lean reads the windows'
  blocks as rows of the arguments; Proof/KernelArray.lean puts the sixteen blocks together into the whole result array.
  The three frames are the generated runs; the idealization rewrote nothing, so `preserves` is trivial.
-/
import proofs.«115059_j6382321401927_1_alg».proof.Defs
import proofs.«115059_j6382321401927_1_alg».proof.Proof.Gen.Kernel
import proofs.«115059_j6382321401927_1_alg».proof.Proof.Gen.Kernel.Skeleton
import proofs.«115059_j6382321401927_1_alg».proof.Proof.Gen.Kernel.Launch
import proofs.«115059_j6382321401927_1_alg».proof.Proof.Gen.Kernel.Points
import proofs.«115059_j6382321401927_1_alg».proof.Proof.Gen.Kernel.Frame
import proofs.«115059_j6382321401927_1_alg».proof.Proof.Gen.KernelIdeal
import proofs.«115059_j6382321401927_1_alg».proof.Proof.Gen.KernelIdeal.Skeleton
import proofs.«115059_j6382321401927_1_alg».proof.Proof.Gen.KernelIdeal.Launch
import proofs.«115059_j6382321401927_1_alg».proof.Proof.Gen.KernelIdeal.Points
import proofs.«115059_j6382321401927_1_alg».proof.Proof.Gen.KernelIdeal.Frame
import proofs.«115059_j6382321401927_1_alg».proof.Proof.Gen.KernelIdeal.Value
import proofs.«115059_j6382321401927_1_alg».proof.Proof.Gen.ReferenceIdeal
import proofs.«115059_j6382321401927_1_alg».proof.Proof.Gen.ReferenceIdeal.Run
import proofs.«115059_j6382321401927_1_alg».proof.Proof.Gen.ReferenceIdeal.Read
import proofs.«115059_j6382321401927_1_alg».proof.Proof.Gen.Pre_finite_inputs
import proofs.«115059_j6382321401927_1_alg».proof.Proof.PoolSpec
import proofs.«115059_j6382321401927_1_alg».proof.Proof.ReferencePooled
import proofs.«115059_j6382321401927_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the pooled function of those arguments. -/
theorem algebraic : Cert.algebraic_KernelIdeal_ReferenceIdeal := by
  intro m ρ m' ρ' _ hagree
  refine ⟨fun c => Cert.Pool.Kernel.result m c, Cert.Pool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Pool.Reference.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
